-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S128x6 : Shape := ⟨2, ![128, 6]⟩
abbrev S128 : Shape := ⟨1, ![128]⟩
abbrev S128x128 : Shape := ⟨2, ![128, 128]⟩
abbrev S4x128 : Shape := ⟨2, ![4, 128]⟩
abbrev S4 : Shape := ⟨1, ![4]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4x128 .f32) (main_arg8 : FVec F S4 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S4x128 .f32) (main_arg8 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1048576x6 .f32) (main_arg1 : FVec F S128x6 .f32) (main_arg2 : FVec F S128 .f32) (main_arg3 : FVec F S128x128 .f32) (main_arg4 : FVec F S128 .f32) (main_arg5 : FVec F S128x128 .f32) (main_arg6 : FVec F S128 .f32) (main_arg7 : FVec F S4x128 .f32) (main_arg8 : FVec F S4 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S128x6 .f32 := Host.absf main_arg1
  let main_cst_0 : FVec F S_ .f32 := constant S_ .f32 0x7F800000#32
  let main_v5 : FVec F S128x6 .f32 := broadcastInDim S128x6 ![] bcast_S_S128x6 main_cst_0
  let main_v6 : IVec S128x6 1 := cmpf .olt main_v4 main_v5
  let main_c_1 : IVec S_ 1 := constantI S_ 1 1#1
  let main_v7 : IVec S_ 1 := (fun x v => Host.reduce IntOp.andi x v reducesTo_S128x6_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S1048576x6 : Shape := ⟨2, ![1048576, 6]⟩
abbrev S128x6 : Shape := ⟨2, ![128, 6]⟩
abbrev S128 : Shape := ⟨1, ![128]⟩
abbrev S128x128 : Shape := ⟨2, ![128, 128]⟩
abbrev S4x128 : Shape := ⟨2, ![4, 128]⟩
abbrev S4 : Shape := ⟨1, ![4]⟩
abbrev S6x1048576 : Shape := ⟨2, ![6, 1048576]⟩
abbrev S128x1 : Shape := ⟨2, ![128, 1]⟩
abbrev S4x1 : Shape := ⟨2, ![4, 1]⟩
abbrev S4x1048576 : Shape := ⟨2, ![4, 1048576]⟩
abbrev S6x8192 : Shape := ⟨2, ![6, 8192]⟩
abbrev S4x8192 : Shape := ⟨2, ![4, 8192]⟩
abbrev S128x8192 : Shape := ⟨2, ![128, 8192]⟩
abbrev S1048576x4 : Shape := ⟨2, ![1048576, 4]⟩

abbrev nBuf : Space → Nat
  | .hbm => 16
  | .vmem => 12
  | .smem => 0
  | _ => 0

abbrev bufTy : (tb : Table) → Fin (tcTables nBuf tb) → BufTy
  | .hbm, ⟨0, _⟩ => ⟨S1048576x6, .f32⟩
  | .hbm, ⟨1, _⟩ => ⟨S128x6, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x128, .f32⟩
  | .hbm, ⟨8, _⟩ => ⟨S4, .f32⟩
  | .hbm, ⟨9, _⟩ => ⟨S6x1048576, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S4x1, .f32⟩
  | .hbm, ⟨14, _⟩ => ⟨S4x1048576, .f32⟩
  | .hbm, ⟨15, _⟩ => ⟨S1048576x4, .f32⟩
  | .local _ .vmem, ⟨0, _⟩ => ⟨S6x8192, .f32⟩
  | .local _ .vmem, ⟨1, _⟩ => ⟨S6x8192, .f32⟩
  | .local _ .vmem, ⟨2, _⟩ => ⟨S128x6, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x1, .f32⟩
  | .local _ .vmem, ⟨8, _⟩ => ⟨S4x128, .f32⟩
  | .local _ .vmem, ⟨9, _⟩ => ⟨S4x1, .f32⟩
  | .local _ .vmem, ⟨10, _⟩ => ⟨S4x8192, .f32⟩
  | .local _ .vmem, ⟨11, _⟩ => ⟨S4x8192, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1048576x6_S6x1048576_1_0 : S1048576x6.Transposes [1, 0] S6x1048576
  shapeCasts_S128_S128x1 : S128.ShapeCasts S128x1
  shapeCasts_S4_S4x1 : S4.ShapeCasts S4x1
  inb_S6x8192_S6x8192_0_0 : ∀ a, (![0, 0] : Fin 2 → Nat) a + S6x8192.size a ≤ S6x8192.size a
  h_S6x8192 : 0 < S6x8192.numel
  shapeCasts_S6x8192_S6x8192 : S6x8192.ShapeCasts S6x8192
  bitsLt_bf16_f32 : FTy.bits .bf16 < FTy.bits .f32
  inb_S128x6_S128x6_0_0 : ∀ a, (![0, 0] : Fin 2 → Nat) a + S128x6.size a ≤ S128x6.size a
  h_S128x6 : 0 < S128x6.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S128x128_S128x128_0_0 : ∀ a, (![0, 0] : Fin 2 → Nat) a + S128x128.size a ≤ S128x128.size a
  h_S128x128 : 0 < S128x128.numel
  inb_S4x128_S4x128_0_0 : ∀ a, (![0, 0] : Fin 2 → Nat) a + S4x128.size a ≤ S4x128.size a
  h_S4x128 : 0 < S4x128.numel
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x8192 : S4x1.Broadcasts S4x8192
  inb_S4x8192_S4x8192_0_0 : ∀ a, (![0, 0] : Fin 2 → Nat) a + S4x8192.size a ≤ S4x8192.size a
  h_S4x8192 : 0 < S4x8192.numel
  transposes_S4x1048576_S1048576x4_1_0 : S4x1048576.Transposes [1, 0] S1048576x4
  dot_S128x6_S6x8192_S128x8192_1_0_0_1_n_n_wf : DotDims.WF S128x6 S6x8192 S128x8192 [1] [0] [0] [1] [] []
  dot_S128x128_S128x8192_S128x8192_1_0_0_1_n_n_wf : DotDims.WF S128x128 S128x8192 S128x8192 [1] [0] [0] [1] [] []
  dot_S4x128_S128x8192_S4x8192_1_0_0_1_n_n_wf : DotDims.WF S4x128 S128x8192 S4x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x8192.size a ≤ S6x1048576.size a
  hwx0_0 : ∀ i : grid0.Coords, EltTy.bits .f32 = 32 ∨ (Rect.block (s := S6x1048576) S6x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x6.size a ≤ S128x6.size a
  hwx0_1 : ∀ i : grid0.Coords, EltTy.bits .f32 = 32 ∨ (Rect.block (s := S128x6) S128x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x128.size a
  hwx0_7 : ∀ i : grid0.Coords, EltTy.bits .f32 = 32 ∨ (Rect.block (s := S4x128) S4x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1.size a ≤ S4x1.size a
  hwx0_8 : ∀ i : grid0.Coords, EltTy.bits .f32 = 32 ∨ (Rect.block (s := S4x1) S4x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x8192.size a ≤ S4x1048576.size a
  hwx0_9 : ∀ i : grid0.Coords, EltTy.bits .f32 = 32 ∨ (Rect.block (s := S4x1048576) S4x8192.size (cc0_transform_9 i) (hinb0_9 i)).WholeWords (EltTy.packing .f32)

variable [Facts₀]

def dot_S128x6_S6x8192_S128x8192_1_0_0_1_n_n : DotDims S128x6 S6x8192 S128x8192 where
  lhsContracting := [1]
  rhsContracting := [0]
  lhsNonContracting := [0]
  rhsNonContracting := [1]
  lhsBatch := []
  rhsBatch := []
  wf := dot_S128x6_S6x8192_S128x8192_1_0_0_1_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S4x128_S128x8192_S4x8192_1_0_0_1_n_n : DotDims S4x128 S128x8192 S4x8192 where
  lhsContracting := [1]
  rhsContracting := [0]
  lhsNonContracting := [0]
  rhsNonContracting := [1]
  lhsBatch := []
  rhsBatch := []
  wf := dot_S4x128_S128x8192_S4x8192_1_0_0_1_n_n_wf

abbrev win0_0 : Pipeline.Window sig grid0 :=
  Pipeline.Window.ofSpec (Memref.whole main_v0) S6x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S4x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S4x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S128x6 : Shape := ⟨2, ![128, 6]⟩
abbrev S128 : Shape := ⟨1, ![128]⟩
abbrev S128x128 : Shape := ⟨2, ![128, 128]⟩
abbrev S4x128 : Shape := ⟨2, ![4, 128]⟩
abbrev S4 : Shape := ⟨1, ![4]⟩
abbrev S6x128 : Shape := ⟨2, ![6, 128]⟩
abbrev S1048576x128 : Shape := ⟨2, ![1048576, 128]⟩
abbrev S1x128 : Shape := ⟨2, ![1, 128]⟩
abbrev S_ : Shape := ⟨0, ![]⟩
abbrev S128x4 : Shape := ⟨2, ![128, 4]⟩
abbrev S1048576x4 : Shape := ⟨2, ![1048576, 4]⟩
abbrev S1x4 : Shape := ⟨2, ![1, 4]⟩

abbrev nBuf : Space → Nat
  | .hbm => 38
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S128x6, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x128, .f32⟩
  | .hbm, ⟨8, _⟩ => ⟨S4, .f32⟩
  | .hbm, ⟨9, _⟩ => ⟨S6x128, .f32⟩
  | .hbm, ⟨10, _⟩ => ⟨S1048576x128, .f32⟩
  | .hbm, ⟨11, _⟩ => ⟨S1x128, .f32⟩
  | .hbm, ⟨12, _⟩ => ⟨S1048576x128, .f32⟩
  | .hbm, ⟨13, _⟩ => ⟨S1048576x128, .f32⟩
  | .hbm, ⟨14, _⟩ => ⟨S_, .f32⟩
  | .hbm, ⟨15, _⟩ => ⟨S1048576x128, .f32⟩
  | .hbm, ⟨16, _⟩ => ⟨S1048576x128, .f32⟩
  | .hbm, ⟨17, _⟩ => ⟨S128x128, .f32⟩
  | .hbm, ⟨18, _⟩ => ⟨S1048576x128, .f32⟩
  | .hbm, ⟨19, _⟩ => ⟨S1x128, .f32⟩
  | .hbm, ⟨20, _⟩ => ⟨S1048576x128, .f32⟩
  | .hbm, ⟨21, _⟩ => ⟨S1048576x128, .f32⟩
  | .hbm, ⟨22, _⟩ => ⟨S_, .f32⟩
  | .hbm, ⟨23, _⟩ => ⟨S1048576x128, .f32⟩
  | .hbm, ⟨24, _⟩ => ⟨S1048576x128, .f32⟩
  | .hbm, ⟨25, _⟩ => ⟨S128x128, .f32⟩
  | .hbm, ⟨26, _⟩ => ⟨S1048576x128, .f32⟩
  | .hbm, ⟨27, _⟩ => ⟨S1x128, .f32⟩
  | .hbm, ⟨28, _⟩ => ⟨S1048576x128, .f32⟩
  | .hbm, ⟨29, _⟩ => ⟨S1048576x128, .f32⟩
  | .hbm, ⟨30, _⟩ => ⟨S_, .f32⟩
  | .hbm, ⟨31, _⟩ => ⟨S1048576x128, .f32⟩
  | .hbm, ⟨32, _⟩ => ⟨S1048576x128, .f32⟩
  | .hbm, ⟨33, _⟩ => ⟨S128x4, .f32⟩
  | .hbm, ⟨34, _⟩ => ⟨S1048576x4, .f32⟩
  | .hbm, ⟨35, _⟩ => ⟨S1x4, .f32⟩
  | .hbm, ⟨36, _⟩ => ⟨S1048576x4, .f32⟩
  | .hbm, ⟨37, _⟩ => ⟨S1048576x4, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S128x6_S6x128_1_0 : S128x6.Transposes [1, 0] S6x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  transposes_S128x128_S128x128_1_0 : S128x128.Transposes [1, 0] S128x128
  transposes_S4x128_S128x4_1_0 : S4x128.Transposes [1, 0] S128x4
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  dot_S1048576x6_S6x128_S1048576x128_1_0_0_1_n_n_wf : DotDims.WF S1048576x6 S6x128 S1048576x128 [1] [0] [0] [1] [] []
  dot_S1048576x128_S128x128_S1048576x128_1_0_0_1_n_n_wf : DotDims.WF S1048576x128 S128x128 S1048576x128 [1] [0] [0] [1] [] []
  dot_S1048576x128_S128x4_S1048576x4_1_0_0_1_n_n_wf : DotDims.WF S1048576x128 S128x4 S1048576x4 [1] [0] [0] [1] [] []

variable [Facts₀]

def dot_S1048576x6_S6x128_S1048576x128_1_0_0_1_n_n : DotDims S1048576x6 S6x128 S1048576x128 where
  lhsContracting := [1]
  rhsContracting := [0]
  lhsNonContracting := [0]
  rhsNonContracting := [1]
  lhsBatch := []
  rhsBatch := []
  wf := dot_S1048576x6_S6x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x4_S1048576x4_1_0_0_1_n_n : DotDims S1048576x128 S128x4 S1048576x4 where
  lhsContracting := [1]
  rhsContracting := [0]
  lhsNonContracting := [0]
  rhsNonContracting := [1]
  lhsBatch := []
  rhsBatch := []
  wf := dot_S1048576x128_S128x4_S1048576x4_1_0_0_1_n_n_wf

class Facts : Prop extends Facts₀ where

variable [Facts]
-- ==== Proof.Mlp.lean ====
/-
  The network both programs compute, for one sample, on the extended reals.

  A dense layer sends a vector h of B entries to the vector whose entry j is

      (∑ i < B, W j i · h i) + b j,

  and the hidden layers clamp that below at zero. The network is three clamped layers (6 → 128 → 128 → 128)
  followed by one plain layer (128 → 4). Nothing here asks the entries to be finite: the only law used between the
  two programs is that a product of two extended reals does not depend on the order of its factors.
-/
import Idealize.ShloMosaic.Lib.ValueIdx
import Idealize.ShloMosaic.PureOps.Ideal.Laws

noncomputable section

open scoped BigOperators

namespace Cert.Mlp

open Idealize.ShloMosaic

/-- One dense layer on one sample: entry `j` is the row `W j` against `h`, plus the bias `b j`. -/
def dense {A B : ℕ} (W : Fin A → Fin B → EReal) (b : Fin A → EReal) (h : Fin B → EReal) (j : Fin A) : EReal :=
  (∑ i : Fin B, W j i * h i) + b j

/-- The same entry with every product written activation first, weight second. -/
theorem dense_comm {A B : ℕ} (W : Fin A → Fin B → EReal) (b : Fin A → EReal) (h : Fin B → EReal) (j : Fin A) :
    (∑ i : Fin B, h i * W j i) + b j = dense W b h j :=
  congrArg (· + b j) (Finset.sum_congr rfl fun i _ => mul_comm (h i) (W j i))

/-- The clamp below at zero; the zero is the value of the all-zero f32 word. -/
def relu (z : EReal) : EReal := max z (Ideal.ofBits .f32 0x00000000#32)

/-- The four layers on one sample `x`: entry `o` of the output. -/
def mlp {D H O : ℕ} (W1 : Fin H → Fin D → EReal) (b1 : Fin H → EReal) (W2 : Fin H → Fin H → EReal) (b2 : Fin H → EReal)
    (W3 : Fin H → Fin H → EReal) (b3 : Fin H → EReal) (W4 : Fin O → Fin H → EReal) (b4 : Fin O → EReal)
    (x : Fin D → EReal) (o : Fin O) : EReal :=
  dense W4 b4 (fun k => relu (dense W3 b3 (fun j => relu (dense W2 b2 (fun i => relu (dense W1 b1 x i)) j)) k)) o

end Cert.Mlp

end
-- ==== Proof.RefValue.lean ====
/-
  The reference's result, entry by entry, is the network of `Mlp`.

  The reference keeps samples on the leading axis: a hidden array is [N, 128] and a layer is h · Wᵀ + b with the bias
  laid along a row and repeated down the samples. Read at (n, j), a layer's result is

      ∑ i, h (n, i) · W (j, i)  +  b j,

  the products activation first; exchanging the factors of each product gives the dense layer of `Mlp`, clamped at zero
  for the three hidden layers. The stages below follow the generated one-operation-at-a-time reading of the reference.
-/
import proofs.«172183_j30829275251333_2_alg».proof.Proof.Gen.ReferenceIdeal.Read
import proofs.«172183_j30829275251333_2_alg».proof.Proof.Mlp

noncomputable section

open scoped BigOperators

namespace Cert.ReferenceIdeal.RefValue

open Cert.ReferenceIdeal Cert.ReferenceIdeal.Read Idealize.ShloMosaic Idealize.ShloMosaic.ValueIdx Cert.Mlp

variable (x0 : (⟨S1048576x6, .f32⟩ : BufTy).Contents (Elt Ideal)) (x1 : (⟨S128x6, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S4x128, .f32⟩ : BufTy).Contents (Elt Ideal))
  (x8 : (⟨S4, .f32⟩ : BufTy).Contents (Elt Ideal))

/-! ## Where each stage reads its operands -/

theorem lidx1 (n : Fin 1048576) (j : Fin 128) (k : Fin 6) : lidx_main_v1 (ix2 n j) k = ix2 n k := funext fun a => Fin.ext (by match a with | ⟨0, _⟩ => rfl | ⟨1, _⟩ => rfl)
theorem ridx1 (n : Fin 1048576) (j : Fin 128) (k : Fin 6) : idx_main_v0 (ridx_main_v1 (ix2 n j) k) = ix2 j k := funext fun a => Fin.ext (by match a with | ⟨0, _⟩ => rfl | ⟨1, _⟩ => rfl)
theorem bias1 (n : Fin 1048576) (j : Fin 128) : idx_main_v2 (idx_main_v3 (ix2 n j)) = ix1 j := funext fun a => Fin.ext (by match a with | ⟨0, _⟩ => rfl)
theorem lidx2 (n : Fin 1048576) (j : Fin 128) (k : Fin 128) : lidx_main_v7 (ix2 n j) k = ix2 n k := funext fun a => Fin.ext (by match a with | ⟨0, _⟩ => rfl | ⟨1, _⟩ => rfl)
theorem ridx2 (n : Fin 1048576) (j : Fin 128) (k : Fin 128) : idx_main_v6 (ridx_main_v7 (ix2 n j) k) = ix2 j k := funext fun a => Fin.ext (by match a with | ⟨0, _⟩ => rfl | ⟨1, _⟩ => rfl)
theorem bias2 (n : Fin 1048576) (j : Fin 128) : idx_main_v8 (idx_main_v9 (ix2 n j)) = ix1 j := funext fun a => Fin.ext (by match a with | ⟨0, _⟩ => rfl)
theorem lidx3 (n : Fin 1048576) (j : Fin 128) (k : Fin 128) : lidx_main_v13 (ix2 n j) k = ix2 n k := funext fun a => Fin.ext (by match a with | ⟨0, _⟩ => rfl | ⟨1, _⟩ => rfl)
theorem ridx3 (n : Fin 1048576) (j : Fin 128) (k : Fin 128) : idx_main_v12 (ridx_main_v13 (ix2 n j) k) = ix2 j k := funext fun a => Fin.ext (by match a with | ⟨0, _⟩ => rfl | ⟨1, _⟩ => rfl)
theorem bias3 (n : Fin 1048576) (j : Fin 128) : idx_main_v14 (idx_main_v15 (ix2 n j)) = ix1 j := funext fun a => Fin.ext (by match a with | ⟨0, _⟩ => rfl)
theorem lidx4 (n : Fin 1048576) (o : Fin 4) (k : Fin 128) : lidx_main_v19 (ix2 n o) k = ix2 n k := funext fun a => Fin.ext (by match a with | ⟨0, _⟩ => rfl | ⟨1, _⟩ => rfl)
theorem ridx4 (n : Fin 1048576) (o : Fin 4) (k : Fin 128) : idx_main_v18 (ridx_main_v19 (ix2 n o) k) = ix2 o k := funext fun a => Fin.ext (by match a with | ⟨0, _⟩ => rfl | ⟨1, _⟩ => rfl)
theorem bias4 (n : Fin 1048576) (o : Fin 4) : idx_main_v20 (idx_main_v21 (ix2 n o)) = ix1 o := funext fun a => Fin.ext (by match a with | ⟨0, _⟩ => rfl)

/-! ## The layers -/

/-- The first hidden array at (n, j): the clamped dense layer of sample n's six features. -/
theorem hidden1 (n : Fin 1048576) (j : Fin 128) :
    val_main_v5 (F := Ideal) x0 x1 x2 (ix2 n j)
      = relu (dense (fun j d => x1 (ix2 j d)) (fun j => x2 (ix1 j)) (fun d => x0 (ix2 n d)) j) := by
  rw [val_main_v5_apply, val_main_v4_apply, val_main_v1_apply, val_main_v3_apply, val_main_v2_apply,
    val_main_call0_v0_apply, val_main_call0_cst_apply]
  simp only [val_main_v0_apply, lidx1, ridx1, bias1, Ideal.addf_def, Ideal.maximumf_def, Ideal.ofBits_def]
  exact congrArg (max · _) (dense_comm (fun j d => x1 (ix2 j d)) (fun j => x2 (ix1 j)) (fun d => x0 (ix2 n d)) j)

/-- The second hidden array at (n, j). -/
theorem hidden2 (n : Fin 1048576) (j : Fin 128) :
    val_main_v11 (F := Ideal) x0 x1 x2 x3 x4 (ix2 n j)
      = relu (dense (fun j i => x3 (ix2 j i)) (fun j => x4 (ix1 j)) (fun i => val_main_v5 (F := Ideal) x0 x1 x2 (ix2 n i)) j) := by
  rw [val_main_v11_apply, val_main_v10_apply, val_main_v7_apply, val_main_v9_apply, val_main_v8_apply,
    val_main_call1_v0_apply, val_main_call1_cst_apply]
  simp only [val_main_v6_apply, lidx2, ridx2, bias2, Ideal.addf_def, Ideal.maximumf_def, Ideal.ofBits_def]
  exact congrArg (max · _) (dense_comm (fun j i => x3 (ix2 j i)) (fun j => x4 (ix1 j)) (fun i => val_main_v5 (F := Ideal) x0 x1 x2 (ix2 n i)) j)

/-- The third hidden array at (n, j). -/
theorem hidden3 (n : Fin 1048576) (j : Fin 128) :
    val_main_v17 (F := Ideal) x0 x1 x2 x3 x4 x5 x6 (ix2 n j)
      = relu (dense (fun j i => x5 (ix2 j i)) (fun j => x6 (ix1 j)) (fun i => val_main_v11 (F := Ideal) x0 x1 x2 x3 x4 (ix2 n i)) j) := by
  rw [val_main_v17_apply, val_main_v16_apply, val_main_v13_apply, val_main_v15_apply, val_main_v14_apply,
    val_main_call2_v0_apply, val_main_call2_cst_apply]
  simp only [val_main_v12_apply, lidx3, ridx3, bias3, Ideal.addf_def, Ideal.maximumf_def, Ideal.ofBits_def]
  exact congrArg (max · _) (dense_comm (fun j i => x5 (ix2 j i)) (fun j => x6 (ix1 j)) (fun i => val_main_v11 (F := Ideal) x0 x1 x2 x3 x4 (ix2 n i)) j)

/-- The result at (n, o): the last, unclamped layer of the third hidden array's row n. -/
theorem output (n : Fin 1048576) (o : Fin 4) :
    val_main_v22 (F := Ideal) x0 x1 x2 x3 x4 x5 x6 x7 x8 (ix2 n o)
      = dense (fun o k => x7 (ix2 o k)) (fun o => x8 (ix1 o)) (fun k => val_main_v17 (F := Ideal) x0 x1 x2 x3 x4 x5 x6 (ix2 n k)) o := by
  rw [val_main_v22_apply, val_main_v19_apply, val_main_v21_apply, val_main_v20_apply]
  simp only [val_main_v18_apply, lidx4, ridx4, bias4, Ideal.addf_def]
  exact dense_comm (fun o k => x7 (ix2 o k)) (fun o => x8 (ix1 o)) (fun k => val_main_v17 (F := Ideal) x0 x1 x2 x3 x4 x5 x6 (ix2 n k)) o

/-- The reference's result at (n, o) is entry o of the network on sample n. -/
theorem result_apply (n : Fin 1048576) (o : Fin 4) :
    val_main_v22 (F := Ideal) x0 x1 x2 x3 x4 x5 x6 x7 x8 (ix2 n o)
      = mlp (fun j d => x1 (ix2 j d)) (fun j => x2 (ix1 j)) (fun j i => x3 (ix2 j i)) (fun j => x4 (ix1 j))
          (fun j i => x5 (ix2 j i)) (fun j => x6 (ix1 j)) (fun o k => x7 (ix2 o k)) (fun o => x8 (ix1 o))
          (fun d => x0 (ix2 n d)) o := by
  rw [output]
  simp only [hidden3, hidden2, hidden1]
  rfl

end Cert.ReferenceIdeal.RefValue

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.KernelBody.lean ====
/-
  The kernel body's stored value, entry by entry, is the network of `Mlp` on one column of the input block.

  The body keeps samples on the trailing axis: the input block is [6, 8192] (one sample per column), a hidden value
  is [128, 8192], and a layer is W · h + b with the bias a [128, 1] column repeated along the samples. Each product W · h
  is accumulated onto the zero splat, so read at (j, q) it is the plain sum ∑ i, W (j, i) · h (i, q); the narrowing of
  an operand to bf16 before a product changes no value on the extended reals. Hence at (j, q) a hidden layer is the
  clamped dense layer of column q, and the stored [4, 8192] value at (o, q) is entry o of the network on column q.
-/
import proofs.«172183_j30829275251333_2_alg».proof.Proof.Gen.KernelIdeal.Skeleton
import proofs.«172183_j30829275251333_2_alg».proof.Proof.LibMatmulNN
import proofs.«172183_j30829275251333_2_alg».proof.Proof.LibColumn
import proofs.«172183_j30829275251333_2_alg».proof.Proof.Mlp
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Mlp

/-! ## The three products are plain matrix products -/

theorem dot_first : dot_S128x6_S6x8192_S128x8192_1_0_0_1_n_n = DotDims.plain 128 6 8192 := rfl
theorem dot_hidden : dot_S128x128_S128x8192_S128x8192_1_0_0_1_n_n = DotDims.plain 128 128 8192 := rfl
theorem dot_last : dot_S4x128_S128x8192_S4x8192_1_0_0_1_n_n = DotDims.plain 4 128 8192 := rfl

/-! ## One layer of the body at an entry -/

/-- A product onto the zero splat plus a bias column repeated along the samples, at (j, q): the dense layer of
    column q of `h`, with the weights' row j and the column's entry j. -/
theorem affine_apply {A B Q : ℕ} (W : FVec Ideal ⟨2, ![A, B]⟩ .bf16) (h : FVec Ideal ⟨2, ![B, Q]⟩ .bf16)
    (c : FVec Ideal ⟨2, ![A, 1]⟩ .f32) (hb : (⟨2, ![A, 1]⟩ : Shape).Broadcasts ⟨2, ![A, Q]⟩) (j : Fin A) (q : Fin Q) :
    addf (matmul (DotDims.plain A B Q) none W h (constant ⟨2, ![A, Q]⟩ .f32 0x00000000#32)) (broadcastTo ⟨2, ![A, Q]⟩ c hb) (ix2 j q)
      = dense (fun j i => W (ix2 j i)) (fun j => c (ix2 j (0 : Fin 1))) (fun i => h (ix2 i q)) j := by
  rw [addf_apply]
  simp only [matmul]
  rw [MatmulNN.matmul_zero_apply, Cert.Lib.Column.broadcastTo_a1_ab_apply]
  rfl

/-- The same clamped below at zero, at (j, q). -/
theorem clamped_apply {A B Q : ℕ} (W : FVec Ideal ⟨2, ![A, B]⟩ .bf16) (h : FVec Ideal ⟨2, ![B, Q]⟩ .bf16)
    (c : FVec Ideal ⟨2, ![A, 1]⟩ .f32) (hb : (⟨2, ![A, 1]⟩ : Shape).Broadcasts ⟨2, ![A, Q]⟩) (j : Fin A) (q : Fin Q) :
    maximumf (addf (matmul (DotDims.plain A B Q) none W h (constant ⟨2, ![A, Q]⟩ .f32 0x00000000#32))
        (broadcastTo ⟨2, ![A, Q]⟩ c hb)) (broadcast ⟨2, ![A, Q]⟩ (FloatOps.ofBits (F := Ideal) .f32 0x00000000#32)) (ix2 j q)
      = relu (dense (fun j i => W (ix2 j i)) (fun j => c (ix2 j (0 : Fin 1))) (fun i => h (ix2 i q)) j) := by
  rw [maximumf_apply, affine_apply, broadcast_apply]
  rfl

/-! ## The body's values -/

variable (x0 : Vec Ideal S6x8192 .f32) (x1 : Vec Ideal S128x6 .f32) (x2 : Vec Ideal S128x1 .f32)
  (x3 : Vec Ideal S128x128 .f32) (x4 : Vec Ideal S128x1 .f32) (x5 : Vec Ideal S128x128 .f32) (x6 : Vec Ideal S128x1 .f32)
  (x7 : Vec Ideal S4x128 .f32) (x8 : Vec Ideal S4x1 .f32)

/-- The third hidden value at (k, q): three clamped layers of column q of the input block. -/
theorem hidden_apply (k : Fin 128) (q : Fin 8192) :
    k0_pay2 x0 x1 x2 x3 x4 x5 x6 (ix2 k q)
      = relu (dense (fun j i => x5 (ix2 j i)) (fun j => x6 (ix2 j (0 : Fin 1)))
          (fun j => relu (dense (fun j i => x3 (ix2 j i)) (fun j => x4 (ix2 j (0 : Fin 1)))
            (fun i => relu (dense (fun j d => x1 (ix2 j d)) (fun j => x2 (ix2 j (0 : Fin 1))) (fun d => x0 (ix2 d q)) i)) j)) k) := by
  unfold k0_pay2
  simp only [dot_first, dot_hidden, shapeCast_self]
  simp only [clamped_apply, truncf_apply]

/-- The stored value at (o, q): entry o of the network on column q of the input block. -/
theorem stored_apply (o : Fin 4) (q : Fin 8192) :
    k0_pay1 (k0_pay2 x0 x1 x2 x3 x4 x5 x6) (k0_pay3 x7) x8 (ix2 o q)
      = mlp (fun j d => x1 (ix2 j d)) (fun j => x2 (ix2 j (0 : Fin 1))) (fun j i => x3 (ix2 j i)) (fun j => x4 (ix2 j (0 : Fin 1)))
          (fun j i => x5 (ix2 j i)) (fun j => x6 (ix2 j (0 : Fin 1))) (fun o k => x7 (ix2 o k)) (fun o => x8 (ix2 o (0 : Fin 1)))
          (fun d => x0 (ix2 d q)) o := by
  unfold k0_pay1 k0_pay3 mlp
  simp only [dot_last, shapeCast_self]
  rw [affine_apply]
  simp only [truncf_apply, hidden_apply]

end Cert.KernelIdeal.Body

end
-- ==== Proof.Entry.lean ====
/-
  What the kernel's region finds in the arrays its windows read, entry by entry.

  Before the region the program transposes the samples, x [N, 6] ↦ xᵀ [6, N], and re-lays each bias vector as a
  one-column matrix, b [a] ↦ [a, 1]; the weight matrices are passed as they are. So at the region's entry

      xᵀ (d, n) = x (n, d),      bias column (j, 0) = b j,      weights (j, i) = W (j, i).
-/
import proofs.«172183_j30829275251333_2_alg».proof.Proof.Gen.KernelIdeal.Frame
import proofs.«172183_j30829275251333_2_alg».proof.Proof.LibColumn
import Idealize.ShloMosaic.Lib.Pipeline.Value
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the host wrote -/

theorem samplesT_eq (c : Dev nD) :
    (V m c main_v0 : S6x1048576.Idx → EReal)
      = transpose S6x1048576 [1, 0] (m ((c : Thread nD τ).loc main_arg0)) transposes_S1048576x6_S6x1048576_1_0 := by
  show StableHlo.after hostOps0 (fun b => m (c, b)) (Proc.devRef .tc main_v0) = _
  after_results <;> rfl

theorem bias1_eq (c : Dev nD) :
    (V m c main_v1 : S128x1.Idx → EReal) = shapeCast S128x1 (m ((c : Thread nD τ).loc main_arg2)) shapeCasts_S128_S128x1 := by
  show StableHlo.after hostOps0 (fun b => m (c, b)) (Proc.devRef .tc main_v1) = _
  after_results <;> rfl

theorem bias2_eq (c : Dev nD) :
    (V m c main_v2 : S128x1.Idx → EReal) = shapeCast S128x1 (m ((c : Thread nD τ).loc main_arg4)) shapeCasts_S128_S128x1 := by
  show StableHlo.after hostOps0 (fun b => m (c, b)) (Proc.devRef .tc main_v2) = _
  after_results <;> rfl

theorem bias3_eq (c : Dev nD) :
    (V m c main_v3 : S128x1.Idx → EReal) = shapeCast S128x1 (m ((c : Thread nD τ).loc main_arg6)) shapeCasts_S128_S128x1 := by
  show StableHlo.after hostOps0 (fun b => m (c, b)) (Proc.devRef .tc main_v3) = _
  after_results <;> rfl

theorem bias4_eq (c : Dev nD) :
    (V m c main_v4 : S4x1.Idx → EReal) = shapeCast S4x1 (m ((c : Thread nD τ).loc main_arg8)) shapeCasts_S4_S4x1 := by
  show StableHlo.after hostOps0 (fun b => m (c, b)) (Proc.devRef .tc main_v4) = _
  after_results <;> rfl

/-! ## Read at an entry -/

/-- The transposed samples at (d, n) are the samples at (n, d). -/
theorem samplesT_apply (c : Dev nD) (d : Fin 6) (n : Fin 1048576) :
    (V m c main_v0 : S6x1048576.Idx → EReal) (ix2 d n) = m ((c : Thread nD τ).loc main_arg0) (ix2 n d) := by
  rw [samplesT_eq]
  exact transpose_apply [1, 0] _ transposes_S1048576x6_S6x1048576_1_0 (ix2 d n) (ix2 n d) (fun b => match b with
    | ⟨0, _⟩ => rfl
    | ⟨1, _⟩ => rfl)

theorem bias1_apply (c : Dev nD) (j : Fin 128) (u : Fin 1) :
    (V m c main_v1 : S128x1.Idx → EReal) (ix2 j u) = m ((c : Thread nD τ).loc main_arg2) (ix1 j) := by
  rw [bias1_eq]; exact Cert.Lib.Column.shapeCast_a_a1_apply _ _ j u

theorem bias2_apply (c : Dev nD) (j : Fin 128) (u : Fin 1) :
    (V m c main_v2 : S128x1.Idx → EReal) (ix2 j u) = m ((c : Thread nD τ).loc main_arg4) (ix1 j) := by
  rw [bias2_eq]; exact Cert.Lib.Column.shapeCast_a_a1_apply _ _ j u

theorem bias3_apply (c : Dev nD) (j : Fin 128) (u : Fin 1) :
    (V m c main_v3 : S128x1.Idx → EReal) (ix2 j u) = m ((c : Thread nD τ).loc main_arg6) (ix1 j) := by
  rw [bias3_eq]; exact Cert.Lib.Column.shapeCast_a_a1_apply _ _ j u

theorem bias4_apply (c : Dev nD) (o : Fin 4) (u : Fin 1) :
    (V m c main_v4 : S4x1.Idx → EReal) (ix2 o u) = m ((c : Thread nD τ).loc main_arg8) (ix1 o) := by
  rw [bias4_eq]; exact Cert.Lib.Column.shapeCast_a_a1_apply _ _ o u

end Cert.KernelIdeal.Entry

end
-- ==== Proof.Region.lean ====
/-
  The array the kernel's region leaves, as one function of the program's arguments.

  The grid has 128 points. Point t works on samples 8192 t … 8192 t + 8191: its input block is columns
  8192 t … of the transposed samples, its output block the same columns of the [4, N] result, and every weight and
  bias window is the whole array at every point. The body's stored value at (o, q) is entry o of the network on
  column q of the input block, that is on sample 8192 t + q; so each written-back block is the restriction of

      outT (o, n) = network (sample n) o

  to its columns, and since the 128 column ranges tile all N columns the region's result array is outT.
-/
import proofs.«172183_j30829275251333_2_alg».proof.Proof.Gen.KernelIdeal.Frame
import proofs.«172183_j30829275251333_2_alg».proof.Proof.KernelBody
import proofs.«172183_j30829275251333_2_alg».proof.Proof.Entry
import proofs.«172183_j30829275251333_2_alg».proof.Proof.Mlp
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Cert.Mlp
open Idealize.ShloMosaic.Pipeline (Dat)

/-! ## The function the region computes -/

/-- Entry o of the network on sample n, from the program's nine argument arrays. -/
def net (x : S1048576x6.Idx → EReal) (W1 : S128x6.Idx → EReal) (b1 : S128.Idx → EReal) (W2 : S128x128.Idx → EReal)
    (b2 : S128.Idx → EReal) (W3 : S128x128.Idx → EReal) (b3 : S128.Idx → EReal) (W4 : S4x128.Idx → EReal) (b4 : S4.Idx → EReal)
    (n : Fin 1048576) (o : Fin 4) : EReal :=
  mlp (fun j d => W1 (ix2 j d)) (fun j => b1 (ix1 j)) (fun j i => W2 (ix2 j i)) (fun j => b2 (ix1 j))
    (fun j i => W3 (ix2 j i)) (fun j => b3 (ix1 j)) (fun o k => W4 (ix2 o k)) (fun o => b4 (ix1 o)) (fun d => x (ix2 n d)) o

/-- The region's [4, N] result: output entries down the rows, samples along the columns. -/
def outT (x : S1048576x6.Idx → EReal) (W1 : S128x6.Idx → EReal) (b1 : S128.Idx → EReal) (W2 : S128x128.Idx → EReal)
    (b2 : S128.Idx → EReal) (W3 : S128x128.Idx → EReal) (b3 : S128.Idx → EReal) (W4 : S4x128.Idx → EReal) (b4 : S4.Idx → EReal) :
    S4x1048576.Idx → EReal :=
  fun i => net x W1 b1 W2 b2 W3 b3 W4 b4 (i 1) (i 0)

variable (m : (ℓ : Loc nD τ sig) → Buf (Elt Ideal) ℓ)

/-! ## Where each window's block sits -/

theorem zeros : (![0, 0] : Fin 2 → Nat) = fun _ => 0 := funext fun a => by fin_cases a <;> rfl

/-- At point t the sample windows (input 0, output 9) sit at column block t; every other window at the origin. -/
theorem where_blocks : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

theorem point_lt (t : Fin cfg0.N) : t.val < 128 := lt_of_lt_of_eq t.isLt N_0

/-! ## The blocks the body reads, entry by entry -/

/-- Column q of the input block at point t is sample 8192 t + q, read feature first. -/
theorem samples_blk (c : Dev nD) (t : Fin cfg0.N) (hn : ∀ q : Fin 8192, 8192 * t.val + q.val < 1048576) (d : Fin 6) (q : Fin 8192) :
    (iblk m c 0 t : Vec Ideal S6x8192 .f32) (ix2 d q)
      = m ((c : Thread nD τ).loc main_arg0) (ix2 (⟨8192 * t.val + q.val, hn q⟩ : Fin 1048576) d) := by
  obtain ⟨a0, b0, -⟩ := where_blocks t
  refine Eq.trans ?_ (Entry.samplesT_apply m c d (⟨8192 * t.val + q.val, hn q⟩ : Fin 1048576))
  unfold iblk
  rw [View.read_apply]
  show V m c main_v0 _ = V m c main_v0 _
  refine congrArg (V m c main_v0) ?_
  funext a; apply Fin.ext
  match a with
  | ⟨0, _⟩ => show win0_0.index t 0 * 6 + 1 * d.val = d.val; rw [a0]; omega
  | ⟨1, _⟩ => show win0_0.index t 1 * 8192 + 1 * q.val = 8192 * t.val + q.val; rw [b0]; omega

/-- The first layer's weight window is the whole matrix at every point. -/
theorem weights1_blk (c : Dev nD) (t : Fin cfg0.N) (j : Fin 128) (i : Fin 6) :
    (iblk m c 1 t : Vec Ideal S128x6 .f32) (ix2 j i) = m ((c : Thread nD τ).loc main_arg1) (ix2 j i) := by
  obtain ⟨-, -, a1, b1, a2, b2, a3, b3, a4, b4, a5, b5, a6, b6, a7, b7, a8, b8, -, -⟩ := where_blocks t
  refine Eq.trans ?_ (show (V m c main_arg1 : S128x6.Idx → EReal) (ix2 j i) = m ((c : Thread nD τ).loc main_arg1) (ix2 j i) from by rw [V_main_arg1 m c])
  unfold iblk
  rw [View.read_apply]
  show V m c main_arg1 _ = V m c main_arg1 _
  refine congrArg (V m c main_arg1) ?_
  funext a; apply Fin.ext
  match a with
  | ⟨0, _⟩ => show win0_1.index t 0 * 128 + 1 * j.val = j.val; rw [a1]; omega
  | ⟨1, _⟩ => show win0_1.index t 1 * 6 + 1 * i.val = i.val; rw [b1]; omega

/-- The first bias column's window is the whole column at every point: entry j of the bias vector. -/
theorem column1_blk (c : Dev nD) (t : Fin cfg0.N) (j : Fin 128) (i : Fin 1) :
    (iblk m c 2 t : Vec Ideal S128x1 .f32) (ix2 j i) = m ((c : Thread nD τ).loc main_arg2) (ix1 j) := by
  obtain ⟨-, -, a1, b1, a2, b2, a3, b3, a4, b4, a5, b5, a6, b6, a7, b7, a8, b8, -, -⟩ := where_blocks t
  refine Eq.trans ?_ (Entry.bias1_apply m c j i)
  unfold iblk
  rw [View.read_apply]
  show V m c main_v1 _ = V m c main_v1 _
  refine congrArg (V m c main_v1) ?_
  funext a; apply Fin.ext
  match a with
  | ⟨0, _⟩ => show win0_2.index t 0 * 128 + 1 * j.val = j.val; rw [a2]; omega
  | ⟨1, _⟩ => show win0_2.index t 1 * 1 + 1 * i.val = i.val; rw [b2]; omega

/-- The second layer's weights, whole. -/
theorem weights2_blk (c : Dev nD) (t : Fin cfg0.N) (j : Fin 128) (i : Fin 128) :
    (iblk m c 3 t : Vec Ideal S128x128 .f32) (ix2 j i) = m ((c : Thread nD τ).loc main_arg3) (ix2 j i) := by
  obtain ⟨-, -, a1, b1, a2, b2, a3, b3, a4, b4, a5, b5, a6, b6, a7, b7, a8, b8, -, -⟩ := where_blocks t
  refine Eq.trans ?_ (show (V m c main_arg3 : S128x128.Idx → EReal) (ix2 j i) = m ((c : Thread nD τ).loc main_arg3) (ix2 j i) from by rw [V_main_arg3 m c])
  unfold iblk
  rw [View.read_apply]
  show V m c main_arg3 _ = V m c main_arg3 _
  refine congrArg (V m c main_arg3) ?_
  funext a; apply Fin.ext
  match a with
  | ⟨0, _⟩ => show win0_3.index t 0 * 128 + 1 * j.val = j.val; rw [a3]; omega
  | ⟨1, _⟩ => show win0_3.index t 1 * 128 + 1 * i.val = i.val; rw [b3]; omega

/-- The second bias column, whole. -/
theorem column2_blk (c : Dev nD) (t : Fin cfg0.N) (j : Fin 128) (i : Fin 1) :
    (iblk m c 4 t : Vec Ideal S128x1 .f32) (ix2 j i) = m ((c : Thread nD τ).loc main_arg4) (ix1 j) := by
  obtain ⟨-, -, a1, b1, a2, b2, a3, b3, a4, b4, a5, b5, a6, b6, a7, b7, a8, b8, -, -⟩ := where_blocks t
  refine Eq.trans ?_ (Entry.bias2_apply m c j i)
  unfold iblk
  rw [View.read_apply]
  show V m c main_v2 _ = V m c main_v2 _
  refine congrArg (V m c main_v2) ?_
  funext a; apply Fin.ext
  match a with
  | ⟨0, _⟩ => show win0_4.index t 0 * 128 + 1 * j.val = j.val; rw [a4]; omega
  | ⟨1, _⟩ => show win0_4.index t 1 * 1 + 1 * i.val = i.val; rw [b4]; omega

/-- The third layer's weights, whole. -/
theorem weights3_blk (c : Dev nD) (t : Fin cfg0.N) (j : Fin 128) (i : Fin 128) :
    (iblk m c 5 t : Vec Ideal S128x128 .f32) (ix2 j i) = m ((c : Thread nD τ).loc main_arg5) (ix2 j i) := by
  obtain ⟨-, -, a1, b1, a2, b2, a3, b3, a4, b4, a5, b5, a6, b6, a7, b7, a8, b8, -, -⟩ := where_blocks t
  refine Eq.trans ?_ (show (V m c main_arg5 : S128x128.Idx → EReal) (ix2 j i) = m ((c : Thread nD τ).loc main_arg5) (ix2 j i) from by rw [V_main_arg5 m c])
  unfold iblk
  rw [View.read_apply]
  show V m c main_arg5 _ = V m c main_arg5 _
  refine congrArg (V m c main_arg5) ?_
  funext a; apply Fin.ext
  match a with
  | ⟨0, _⟩ => show win0_5.index t 0 * 128 + 1 * j.val = j.val; rw [a5]; omega
  | ⟨1, _⟩ => show win0_5.index t 1 * 128 + 1 * i.val = i.val; rw [b5]; omega

/-- The third bias column, whole. -/
theorem column3_blk (c : Dev nD) (t : Fin cfg0.N) (j : Fin 128) (i : Fin 1) :
    (iblk m c 6 t : Vec Ideal S128x1 .f32) (ix2 j i) = m ((c : Thread nD τ).loc main_arg6) (ix1 j) := by
  obtain ⟨-, -, a1, b1, a2, b2, a3, b3, a4, b4, a5, b5, a6, b6, a7, b7, a8, b8, -, -⟩ := where_blocks t
  refine Eq.trans ?_ (Entry.bias3_apply m c j i)
  unfold iblk
  rw [View.read_apply]
  show V m c main_v3 _ = V m c main_v3 _
  refine congrArg (V m c main_v3) ?_
  funext a; apply Fin.ext
  match a with
  | ⟨0, _⟩ => show win0_6.index t 0 * 128 + 1 * j.val = j.val; rw [a6]; omega
  | ⟨1, _⟩ => show win0_6.index t 1 * 1 + 1 * i.val = i.val; rw [b6]; omega

/-- The last layer's weights, whole. -/
theorem weights4_blk (c : Dev nD) (t : Fin cfg0.N) (j : Fin 4) (i : Fin 128) :
    (iblk m c 7 t : Vec Ideal S4x128 .f32) (ix2 j i) = m ((c : Thread nD τ).loc main_arg7) (ix2 j i) := by
  obtain ⟨-, -, a1, b1, a2, b2, a3, b3, a4, b4, a5, b5, a6, b6, a7, b7, a8, b8, -, -⟩ := where_blocks t
  refine Eq.trans ?_ (show (V m c main_arg7 : S4x128.Idx → EReal) (ix2 j i) = m ((c : Thread nD τ).loc main_arg7) (ix2 j i) from by rw [V_main_arg7 m c])
  unfold iblk
  rw [View.read_apply]
  show V m c main_arg7 _ = V m c main_arg7 _
  refine congrArg (V m c main_arg7) ?_
  funext a; apply Fin.ext
  match a with
  | ⟨0, _⟩ => show win0_7.index t 0 * 4 + 1 * j.val = j.val; rw [a7]; omega
  | ⟨1, _⟩ => show win0_7.index t 1 * 128 + 1 * i.val = i.val; rw [b7]; omega

/-- The last bias column, whole. -/
theorem column4_blk (c : Dev nD) (t : Fin cfg0.N) (j : Fin 4) (i : Fin 1) :
    (iblk m c 8 t : Vec Ideal S4x1 .f32) (ix2 j i) = m ((c : Thread nD τ).loc main_arg8) (ix1 j) := by
  obtain ⟨-, -, a1, b1, a2, b2, a3, b3, a4, b4, a5, b5, a6, b6, a7, b7, a8, b8, -, -⟩ := where_blocks t
  refine Eq.trans ?_ (Entry.bias4_apply m c j i)
  unfold iblk
  rw [View.read_apply]
  show V m c main_v4 _ = V m c main_v4 _
  refine congrArg (V m c main_v4) ?_
  funext a; apply Fin.ext
  match a with
  | ⟨0, _⟩ => show win0_8.index t 0 * 4 + 1 * j.val = j.val; rw [a8]; omega
  | ⟨1, _⟩ => show win0_8.index t 1 * 1 + 1 * i.val = i.val; rw [b8]; omega

/-! ## What point t writes back -/

/-- The body's stored value on the blocks of point t, at an entry of the output block, is `outT` of the argument
    arrays at that entry's place in the [4, N] array. -/
theorem point_eq (c : Dev nD) (t : Fin cfg0.N) (y : S4x8192.Idx) :
    k0_pay1 (k0_pay2 (iblk m c 0 t) (iblk m c 1 t) (iblk m c 2 t) (iblk m c 3 t) (iblk m c 4 t) (iblk m c 5 t) (iblk m c 6 t))
        (k0_pay3 (iblk m c 7 t)) (iblk m c 8 t) y
      = outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  obtain ⟨o, q, rfl⟩ : ∃ (o : Fin 4) (q : Fin 8192), y = ix2 o q := ⟨y 0, y 1, eq_ix2 y⟩
  have ht := point_lt t
  have hn : ∀ q : Fin 8192, 8192 * t.val + q.val < 1048576 := fun q => by have := q.isLt; omega
  have hemb : ((cfg0.win 9).blk t).view.emb (ix2 o q) = ix2 o (⟨8192 * t.val + q.val, hn q⟩ : Fin 1048576) := by
    obtain ⟨-, -, -, -, -, -, -, -, -, -, -, -, -, -, -, -, -, -, a9, b9⟩ := where_blocks t
    funext a; apply Fin.ext
    match a with
    | ⟨0, _⟩ => show win0_9.index t 0 * 4 + 1 * o.val = o.val; rw [a9]; omega
    | ⟨1, _⟩ => show win0_9.index t 1 * 8192 + 1 * q.val = 8192 * t.val + q.val; rw [b9]; omega
  rw [hemb]
  refine (Body.stored_apply (iblk m c 0 t) (iblk m c 1 t) (iblk m c 2 t) (iblk m c 3 t) (iblk m c 4 t) (iblk m c 5 t) (iblk m c 6 t) (iblk m c 7 t) (iblk m c 8 t) o q).trans ?_
  simp only [samples_blk m c t hn, weights1_blk m c t, column1_blk m c t, weights2_blk m c t, column2_blk m c t,
    weights3_blk m c t, column3_blk m c t, weights4_blk m c t, column4_blk m c t]
  rfl

/-- What point t writes back is block t of `outT` of the argument arrays. -/
theorem flushed_eq (c : Dev nD) (t : Fin cfg0.N) :
    (dats m 0 c).flushed 9 t = ((cfg0.win 9).blk t).view.read (Elt Ideal) (outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 9).cut (grid0.coords t) ((dats m 0 c).after 9 t) = _
  rw [after0_9]
  unfold out0_9
  rw [View.canon_unit_zero zeros]
  simp only [View.ld_unit_zero (S := S6x8192) zeros, View.ld_unit_zero (S := S128x6) zeros, View.ld_unit_zero (S := S128x1) zeros,
    View.ld_unit_zero (S := S128x128) zeros, View.ld_unit_zero (S := S4x128) zeros, View.ld_unit_zero (S := S4x1) zeros]
  funext y
  exact point_eq m c t y

/-! ## The blocks tile the array -/

/-- An entry of the [4, N] array is in point t's block iff each coordinate is in the block's range on its axis. -/
theorem mem_blk (t : Fin cfg0.N) (i : S4x1048576.Idx) :
    i ∈ ((cfg0.win 9).blk t).view.set ↔ ∀ a : Fin 2, win0_9.index t a * S4x8192.size a ≤ (i a).val ∧ (i a).val < win0_9.index t a * S4x8192.size a + S4x8192.size a := by
  show i ∈ ((View.whole main_v5).slice (win0_9.rect t)).set ↔ _
  rw [View.set_slice_whole, Rect.mem_set_unit]
  exact Iff.rfl

/-- Column n lies in the block of point n / 8192. -/
theorem covered (i : S4x1048576.Idx) : ∃ t : Fin cfg0.N, (cfg0.win 9).flush t = true ∧ i ∈ ((cfg0.win 9).blk t).view.set := by
  have h0 : (i 0).val < 4 := (i 0).isLt
  have h1 : (i 1).val < 1048576 := (i 1).isLt
  have hN : (i 1).val / 8192 < cfg0.N := by rw [show cfg0.N = 128 from N_0]; omega
  refine ⟨⟨(i 1).val / 8192, hN⟩, flush0_9 _, ?_⟩
  obtain ⟨-, -, -, -, -, -, -, -, -, -, -, -, -, -, -, -, -, -, a9, b9⟩ := where_blocks ⟨(i 1).val / 8192, hN⟩
  rw [mem_blk]
  intro a
  match a with
  | ⟨0, _⟩ =>
    show win0_9.index ⟨(i 1).val / 8192, hN⟩ 0 * 4 ≤ (i 0).val ∧ (i 0).val < win0_9.index ⟨(i 1).val / 8192, hN⟩ 0 * 4 + 4
    rw [a9]; omega
  | ⟨1, _⟩ =>
    show win0_9.index ⟨(i 1).val / 8192, hN⟩ 1 * 8192 ≤ (i 1).val ∧ (i 1).val < win0_9.index ⟨(i 1).val / 8192, hN⟩ 1 * 8192 + 8192
    rw [b9]; show (i 1).val / 8192 * 8192 ≤ (i 1).val ∧ (i 1).val < (i 1).val / 8192 * 8192 + 8192; omega

/-- The region's result array after the run is `outT` of the argument arrays. -/
theorem final (c : Dev nD) : (dats m 0 c).arrAt 9 cfg0.N = outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed_eq m c t) covered

end Cert.KernelIdeal.Region

end
-- ==== Proof.Whole.lean ====
/-
  The kernel's whole program: its result array after the run, as one function of the arguments.

  After the region the program transposes the [4, N] array back: result (n, o) = outT (o, n), which is entry o of the
  network on sample n. The run below restates the generated frame run with that array named, and with each argument
  array read back unchanged: an argument a window stages is an input window's array, which the pipeline only reads; an
  argument no window stages (the samples and the four bias vectors, which the region sees only through the transposed
  and re-laid copies) is touched by no operation after the program's first lines.
-/
import proofs.«172183_j30829275251333_2_alg».proof.Proof.Gen.KernelIdeal.Frame
import proofs.«172183_j30829275251333_2_alg».proof.Proof.Region
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The program's [N, 4] result: sample n down the rows, output entry o along the columns. -/
def result (x : S1048576x6.Idx → EReal) (W1 : S128x6.Idx → EReal) (b1 : S128.Idx → EReal) (W2 : S128x128.Idx → EReal)
    (b2 : S128.Idx → EReal) (W3 : S128x128.Idx → EReal) (b3 : S128.Idx → EReal) (W4 : S4x128.Idx → EReal) (b4 : S4.Idx → EReal) :
    S1048576x4.Idx → EReal :=
  fun i => Region.net x W1 b1 W2 b2 W3 b3 W4 b4 (i 0) (i 1)

variable (m : (ℓ : Loc nD τ sig) → Buf (Elt Ideal) ℓ) (ρ : Dev nD → PrngReg)

/-- The transposition after the region turns the region's [4, N] array into `result`. -/
theorem tail_eq (c : Dev nD) :
    (Pipeline.afterTail₀ cfgs (dats m) 0 (V0 m) [hostOps1] c main_v6 : S1048576x4.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = Region.outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (Pipeline.withArrays_arr spec0 launch0.win.arr_inj c _ _ 9).trans (Region.final m c)
  rw [e]
  funext i
  obtain ⟨n, o, rfl⟩ : ∃ (n : Fin 1048576) (o : Fin 4), i = ix2 n o := ⟨i 0, i 1, eq_ix2 i⟩
  exact transpose_apply [1, 0] _ transposes_S4x1048576_S1048576x4_1_0 (ix2 n o) (ix2 o n) (fun b => match b with
    | ⟨0, _⟩ => rfl
    | ⟨1, _⟩ => rfl)

/-- Every weakly fair execution of the kernel's program terminates with the result array at `result` of the argument
    arrays and every argument array as launched. -/
theorem run : θ_run defs (onTc (τ := τ) (main (F := Ideal))) ⟨m, fun _ => 0, ρ⟩ fun r => ∀ c : Dev nD,
      r.2.mem ((c : Thread nD τ).loc main_v6) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.KernelIdeal.Whole

end
-- ==== Proof.lean ====
/-
  A four-layer perceptron (6 → 128 → 128 → 128 → 4, the three hidden layers clamped below at zero) applied to each of
  N = 1,048,576 samples: the kernel's program and the jnp reference end with the same [N, 4] array of extended reals.

  The reference keeps the samples on the leading axis and computes each layer as h · Wᵀ + b. The kernel's program
  transposes the samples once, runs a grid of 128 points over blocks of 8192 sample columns — at each point computing
  W · h + b with the bias as a column, operands narrowed to bf16 before each product (which changes no value on the
  extended reals) — and transposes the [4, N] result back. Entry by entry both are

      out (n, o) = ∑ k, W4 (o, k) · h3 (n, k) + b4 o,    h_l (n, j) = max (∑ i, W_l (j, i) · h_{l-1} (n, i) + b_l j) 0,

  with h_0 (n, ·) the sample n; the only difference is the order of the two factors in each product, and a product
  of extended reals does not depend on it. No finiteness of the inputs is used.

  The three frames are the generated ones (the reference's is its generated run with the result dropped). The idealized
  kernel is the kernel's own text read on the extended reals, no operation replaced, so the preservation claim is trivial.
-/
import proofs.«172183_j30829275251333_2_alg».proof.Defs
import proofs.«172183_j30829275251333_2_alg».proof.Proof.Gen.Kernel
import proofs.«172183_j30829275251333_2_alg».proof.Proof.Gen.Kernel.Skeleton
import proofs.«172183_j30829275251333_2_alg».proof.Proof.Gen.Kernel.Launch
import proofs.«172183_j30829275251333_2_alg».proof.Proof.Gen.Kernel.Points
import proofs.«172183_j30829275251333_2_alg».proof.Proof.Gen.Kernel.Frame
import proofs.«172183_j30829275251333_2_alg».proof.Proof.Gen.KernelIdeal
import proofs.«172183_j30829275251333_2_alg».proof.Proof.Gen.KernelIdeal.Skeleton
import proofs.«172183_j30829275251333_2_alg».proof.Proof.Gen.KernelIdeal.Launch
import proofs.«172183_j30829275251333_2_alg».proof.Proof.Gen.KernelIdeal.Points
import proofs.«172183_j30829275251333_2_alg».proof.Proof.Gen.KernelIdeal.Frame
import proofs.«172183_j30829275251333_2_alg».proof.Proof.Gen.ReferenceIdeal
import proofs.«172183_j30829275251333_2_alg».proof.Proof.Gen.Pre_finite_inputs
import proofs.«172183_j30829275251333_2_alg».proof.Proof.Gen.ReferenceIdeal.Run
import proofs.«172183_j30829275251333_2_alg».proof.Proof.Gen.ReferenceIdeal.Read
import proofs.«172183_j30829275251333_2_alg».proof.Proof.RefValue
import proofs.«172183_j30829275251333_2_alg».proof.Proof.Whole
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program ends with its result at the network of each sample (its own run, read whole), the reference
    with its result at its operations' composed term; from memories that agree on the arguments the two arrays are
    equal entry by entry, each entry being the same network of the same sample. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v22_eq, e0, e1, e2, e3, e4, e5, e6, e7, e8]
  funext i
  obtain ⟨n, o, rfl⟩ : ∃ (n : Fin 1048576) (o : Fin 4), i = ix2 n o := ⟨i 0, i 1, eq_ix2 i⟩
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
